-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg6 : FVec F S1600000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1600000 .f32 := Host.absf main_arg6
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  main_v23

def fn {F : FTy → Type} [FloatOps F] (main_arg0 : FVec F S100000x64 .f32) (main_arg1 : FVec F S50000x64 .f32) (main_arg2 : FVec F S64x64 .f32) (main_arg3 : FVec F S64x64 .f32) (main_arg4 : IVec S1600000 32) (main_arg5 : IVec S1600000 32) (main_arg6 : FVec F S1600000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S1600000 : Shape := ⟨1, ![1600000]⟩
abbrev S10000x64 : Shape := ⟨2, ![10000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 49
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64x64, .f32⟩
  | .hbm, ⟨4, _⟩ => ⟨S1600000, .i32⟩
  | .hbm, ⟨5, _⟩ => ⟨S1600000, .i32⟩
  | .hbm, ⟨6, _⟩ => ⟨S1600000, .f32⟩
  | .hbm, ⟨7, _⟩ => ⟨S100000x64, .bf16⟩
  | .hbm, ⟨8, _⟩ => ⟨S50000x64, .bf16⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .bf16⟩
  | .hbm, ⟨19, _⟩ => ⟨S1600000x64, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S1600000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .bf16⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S50000x64, .f32⟩
  | .hbm, ⟨41, _⟩ => ⟨S1600000x1, .i32⟩
  | .hbm, ⟨42, _⟩ => ⟨S50000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S50000x64, .f32⟩
  | .hbm, ⟨48, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .bf16⟩
  | .local _ .vmem, ⟨9, _⟩ => ⟨S10000x64, .bf16⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_cst : Ref sig .tc := ⟨.hbm, 43, rfl⟩
abbrev main_call0_v0 : Ref sig .tc := ⟨.hbm, 44, rfl⟩
abbrev main_v30 : Ref sig .tc := ⟨.hbm, 45, rfl⟩
abbrev main_call1_cst : Ref sig .tc := ⟨.hbm, 46, rfl⟩
abbrev main_call1_v0 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S10000x64_S10000x64_0_0 : (Rect.unit (s := S10000x64) ![0, 0] S10000x64.size inb_S10000x64_S10000x64_0_0).PackedRows (EltTy.packing .bf16)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S50000x64 : S_.BroadcastsInDim S50000x64 (![] : Fin 0 → Fin S50000x64.rank)
  dot_S10000x64_S64x64_S10000x64_1_0_0_1_n_n_wf : DotDims.WF S10000x64 S64x64 S10000x64 [1] [0] [0] [1] [] []
  gather_S50000x64_S1600000x1_S1600000x64_1_0_n_n_0_1_164_wf : GatherDims.WF S50000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S1600000x1_S1600000x64_1_0_n_n_0_1_164_wf : GatherDims.WF S100000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .bf16 = 32 ∨ (Rect.block (s := S50000x64) S10000x64.size (cc1_transform_2 i) (hinb1_2 i)).WholeWords (EltTy.packing .bf16)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S1600000 : Shape := ⟨1, ![1600000]⟩
abbrev S1600000x1 : Shape := ⟨2, ![1600000, 1]⟩
abbrev S_ : Shape := ⟨0, ![]⟩
abbrev S1600000x64 : Shape := ⟨2, ![1600000, 64]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64x64, .f32⟩
  | .hbm, ⟨4, _⟩ => ⟨S1600000, .i32⟩
  | .hbm, ⟨5, _⟩ => ⟨S1600000, .i32⟩
  | .hbm, ⟨6, _⟩ => ⟨S1600000, .f32⟩
  | .hbm, ⟨7, _⟩ => ⟨S100000x64, .f32⟩
  | .hbm, ⟨8, _⟩ => ⟨S50000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1600000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S50000x64, .f32⟩
  | .hbm, ⟨39, _⟩ => ⟨S1600000x1, .i32⟩
  | .hbm, ⟨40, _⟩ => ⟨S50000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S50000x64, .f32⟩
  | .hbm, ⟨46, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S50000x64 : S_.BroadcastsInDim S50000x64 (![] : Fin 0 → Fin S50000x64.rank)
  dot_S100000x64_S64x64_S100000x64_1_0_0_1_n_n_wf : DotDims.WF S100000x64 S64x64 S100000x64 [1] [0] [0] [1] [] []
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S1600000x1_S1600000x64_1_0_n_n_0_1_164_wf : GatherDims.WF S100000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.KernelRun.lean ====
/-
  The idealized program's run with its two results named.  The program is two dense-product regions followed by
  the host's message passing; its run is the chain of those five segments, and the state the last segment leaves
  holds every unscoped buffer at the contents the chain folds to.  Read at the two result buffers, and at the seven
  argument buffers (which no segment writes), that state gives: both results are what the fold leaves in their
  buffers, and the arguments are as launched.
-/
import proofs.«146320_j73890617360949_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at what the
    chain of segments folds to there (`W5`), and the seven arguments end as launched. -/
theorem run : θ_run defs (onTc (τ := τ) (main (F := F))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       h c _ (mem_uc main_v31 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Results

end
-- ==== Proof.Tail.lean ====
/-
  The message passing the host performs after the two dense-product regions, read off the program's fold.
  With `T_item`, `T_user` the two projected feature tables the regions leave (stored in the narrow format), `rows`,
  `cols` the edge endpoints and `vals` the edge weights:
    users' output  = max(0, scatter-add over edges e, into row rows[e], of vals[e] · T_item[cols'[e], :]),
    items' output  = max(0, scatter-add over edges e, into row cols[e], of vals[e] · T_user[rows'[e], :]),
  where cols', rows' are the endpoints with a negative one wrapped once by the table's height (jnp's indexing), the
  gathered rows are widened to the accumulation format before the product, and the scatter starts from zeros.
  Each output is stated as ONE function of the five arrays it depends on, and the fold's value at the output's buffer
  is shown to be that function of the region-exit contents.
-/
import proofs.«146320_j73890617360949_2_alg».proof.Proof.Gen.KernelIdeal.Frame
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo

variable {F : FTy → Type} [FloatOps F]

/-- The users' output from the items' projected table (narrow format), the edge endpoints and the edge weights. -/
def usersOut (tItem : (⟨S50000x64, .bf16⟩ : BufTy).Contents (Elt F)) (rows cols : (⟨S1600000, .i32⟩ : BufTy).Contents (Elt F))
    (vals : (⟨S1600000, .f32⟩ : BufTy).Contents (Elt F)) : (⟨S100000x64, .f32⟩ : BufTy).Contents (Elt F) :=
  maximumf
    (Host.scatterAdd scatter_S100000x64_S1600000x1_S1600000x64_1_0_0_1
      (broadcastInDim S100000x64 ![] Facts₀.bcast_S_S100000x64 (constant S_ .f32 0x00000000#32))
      (broadcastInDim S1600000x1 ![0] Facts₀.bcast_S1600000_S1600000x1_0 rows)
      (mulf (broadcastInDim S1600000x64 ![0, 1] Facts₀.bcast_S1600000x1_S1600000x64_0_1 (broadcastInDim S1600000x1 ![0] Facts₀.bcast_S1600000_S1600000x1_0 vals))
        (extf .f32 (Host.gather gather_S50000x64_S1600000x1_S1600000x64_1_0_n_n_0_1_164 tItem
          (broadcastInDim S1600000x1 ![0] Facts₀.bcast_S1600000_S1600000x1_0
            (select (cmpi .slt cols (broadcastInDim S1600000 ![] Facts₀.bcast_S_S1600000 (constantI S_ 32 0#32)))
              (addi cols (broadcastInDim S1600000 ![] Facts₀.bcast_S_S1600000 (constantI S_ 32 50000#32))) cols))) Facts₀.bitsLt_bf16_f32)))
    (broadcastInDim S100000x64 ![] Facts₀.bcast_S_S100000x64 (constant S_ .f32 0x00000000#32))

/-- The items' output from the users' projected table (narrow format), the edge endpoints and the edge weights. -/
def itemsOut (tUser : (⟨S100000x64, .bf16⟩ : BufTy).Contents (Elt F)) (rows cols : (⟨S1600000, .i32⟩ : BufTy).Contents (Elt F))
    (vals : (⟨S1600000, .f32⟩ : BufTy).Contents (Elt F)) : (⟨S50000x64, .f32⟩ : BufTy).Contents (Elt F) :=
  maximumf
    (Host.scatterAdd scatter_S50000x64_S1600000x1_S1600000x64_1_0_0_1
      (broadcastInDim S50000x64 ![] Facts₀.bcast_S_S50000x64 (constant S_ .f32 0x00000000#32))
      (broadcastInDim S1600000x1 ![0] Facts₀.bcast_S1600000_S1600000x1_0 cols)
      (mulf (broadcastInDim S1600000x64 ![0, 1] Facts₀.bcast_S1600000x1_S1600000x64_0_1 (broadcastInDim S1600000x1 ![0] Facts₀.bcast_S1600000_S1600000x1_0 vals))
        (extf .f32 (Host.gather gather_S100000x64_S1600000x1_S1600000x64_1_0_n_n_0_1_164 tUser
          (broadcastInDim S1600000x1 ![0] Facts₀.bcast_S1600000_S1600000x1_0
            (select (cmpi .slt rows (broadcastInDim S1600000 ![] Facts₀.bcast_S_S1600000 (constantI S_ 32 0#32)))
              (addi rows (broadcastInDim S1600000 ![] Facts₀.bcast_S_S1600000 (constantI S_ 32 100000#32))) rows))) Facts₀.bitsLt_bf16_f32)))
    (broadcastInDim S50000x64 ![] Facts₀.bcast_S_S50000x64 (constant S_ .f32 0x00000000#32))

/-- The three host stretches after the regions, from ANY contents `V`, leave at the users' result buffer the users'
    output of `V`'s items' table, endpoints and weights. -/
theorem after_tail_users (V : Valuation τ sig (Elt F)) :
    StableHlo.after hostOps2_2 (StableHlo.after hostOps2_1 (StableHlo.after hostOps2 V)) (Proc.devRef .tc main_v30)
      = usersOut (F := F) (V (Proc.devRef .tc main_v1)) (V (Proc.devRef .tc main_arg4)) (V (Proc.devRef .tc main_arg5)) (V (Proc.devRef .tc main_arg6)) := by
  unfold usersOut
  after_results_simp <;> rfl

/-- … and at the items' result buffer the items' output of `V`'s users' table, endpoints and weights. -/
theorem after_tail_items (V : Valuation τ sig (Elt F)) :
    StableHlo.after hostOps2_2 (StableHlo.after hostOps2_1 (StableHlo.after hostOps2 V)) (Proc.devRef .tc main_v31)
      = itemsOut (F := F) (V (Proc.devRef .tc main_v0)) (V (Proc.devRef .tc main_arg4)) (V (Proc.devRef .tc main_arg5)) (V (Proc.devRef .tc main_arg6)) := by
  unfold itemsOut
  after_results_simp <;> rfl

end Cert.KernelIdeal.Results

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.BlockProduct.lean ====
/-
  What one grid point of either dense-product region stores: the point's `10000 × 64` block of features, narrowed,
  times the `64 × 64` weights, narrowed, accumulated by the matrix unit from zero and narrowed again.  On the extended
  reals a change of format is the identity, so entry `(p, q)` of the stored block is `∑ k, x[p, k] · w[k, q]` of the
  loaded block `x` and the loaded weights `w`.  The two regions run the same body.
-/
import proofs.«146320_j73890617360949_2_alg».proof.Proof.Gen.KernelIdeal.Skeleton
import proofs.«146320_j73890617360949_2_alg».proof.Proof.LibMatmulNN
import Idealize.ShloMosaic.Lib.ValueIdx
import Idealize.ShloMosaic.PureOps.Ideal.Laws

noncomputable section

open scoped BigOperators

namespace Cert.KernelIdeal.Results

open Cert.KernelIdeal Cert.KernelIdeal.Gen
open Idealize.ShloMosaic Idealize.ShloMosaic.ValueIdx

/-- The users' region: entry `(p, q)` of the block a point stores. -/
theorem stored_block_users (x : Vec Ideal S10000x64 .f32) (w : Vec Ideal S64x64 .f32) (p : Fin 10000) (q : Fin 64) :
    (k0_pay1 (F := Ideal) x w : S10000x64.Idx → EReal) (ix2 p q) = ∑ k : Fin 64, x (ix2 p k) * w (ix2 k q) := by
  unfold k0_pay1
  exact LibMatmulNN.matmul_zero_apply 10000 64 64 none (truncf .bf16 x Facts₀.bitsLt_bf16_f32) (truncf .bf16 w Facts₀.bitsLt_bf16_f32) p q

/-- The items' region: the same. -/
theorem stored_block_items (x : Vec Ideal S10000x64 .f32) (w : Vec Ideal S64x64 .f32) (p : Fin 10000) (q : Fin 64) :
    (k1_pay1 (F := Ideal) x w : S10000x64.Idx → EReal) (ix2 p q) = ∑ k : Fin 64, x (ix2 p k) * w (ix2 k q) := by
  unfold k1_pay1
  exact LibMatmulNN.matmul_zero_apply 10000 64 64 none (truncf .bf16 x Facts₀.bitsLt_bf16_f32) (truncf .bf16 w Facts₀.bitsLt_bf16_f32) p q

end Cert.KernelIdeal.Results

end
-- ==== Proof.Spec.lean ====
/-
  The dense projection both programs start with: an `M × 64` feature array times a `64 × 64` weight array, on the
  extended reals, entry by entry:   (x · w)[p, q] = ∑ k, x[p, k] · w[k, q].
  The sum is over `Fin 64` in one fixed form, so that the matrix unit's block products and the host's whole-array
  product are compared with no reordering and no finiteness.
-/
import Idealize.ShloMosaic.PureOps.Ideal
import Idealize.ShloMosaic.Lib.ValueIdx

noncomputable section

open scoped BigOperators

namespace GraphConv

open Idealize.ShloMosaic Idealize.ShloMosaic.ValueIdx

/-- The projection `x · w` of an `M × 64` array by a `64 × 64` array. -/
def project (M : Nat) (x : (⟨2, ![M, 64]⟩ : Shape).Idx → EReal) (w : (⟨2, ![64, 64]⟩ : Shape).Idx → EReal) :
    (⟨2, ![M, 64]⟩ : Shape).Idx → EReal :=
  fun i => ∑ k : Fin 64, x (ix2 (i 0) k) * w (ix2 k (i 1))

/-- Its entry `(p, q)`. -/
theorem project_apply (M : Nat) (x : (⟨2, ![M, 64]⟩ : Shape).Idx → EReal) (w : (⟨2, ![64, 64]⟩ : Shape).Idx → EReal)
    (p : Fin M) (q : Fin 64) : project M x w (ix2 p q) = ∑ k : Fin 64, x (ix2 p k) * w (ix2 k q) := rfl

end GraphConv

end
-- ==== Proof.RegionArrays.lean ====
/-
  What each dense-product region leaves in its table.  A region walks the feature rows in blocks of 10000; at point
  `t` it loads rows `10000 t … 10000 t + 9999` and the whole `64 × 64` weights, and writes back the block's product,
  which is the same rows of the whole projection `x · w` (entry `(p, q)` of a block only reads row `p` of the block).
  The blocks tile the table (row `r` is in block `r / 10000`), so after the region the table IS the projection of the
  features by the weights.  Stated at any contents `V` the region is entered from.
-/
import proofs.«146320_j73890617360949_2_alg».proof.Proof.Gen.KernelIdeal.Frame
import proofs.«146320_j73890617360949_2_alg».proof.Proof.BlockProduct
import proofs.«146320_j73890617360949_2_alg».proof.Proof.Spec
import Idealize.ShloMosaic.Lib.Pipeline.Value
import Idealize.ShloMosaic.Lib.ValueIdx

set_option maxRecDepth 16384

noncomputable section

open scoped BigOperators

namespace Cert.KernelIdeal.Results

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The users' region (pipeline 0): 100000 rows in 10 blocks of 10000 -/

section Users

/-- The region's index maps over its grid: point `t` takes rows block `t` of the features, the whole weights, and
    writes rows block `t` of the table. -/
theorem users_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the features' block at point `t` is the features at row `10000 t + y₀`, column `y₁`. -/
theorem users_features_block (c : Dev nD) (t : Fin cfg0.N) (y : S10000x64.Idx) (i : S100000x64.Idx)
    (h0 : (i 0).val = 10000 * t.val + (y 0).val) (h1 : (i 1).val = (y 1).val) :
    (iblk0 V c 0 t : Vec Ideal S10000x64 .f32) y = (V c main_arg0 : S100000x64.Idx → EReal) i := by
  obtain ⟨e0, e1, -⟩ := users_index t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 64 + 1 * (y 1).val = (i 1).val; rw [e1, h1]; omega

/-- The weights' block at every point is the whole weight array. -/
theorem users_weights_block (c : Dev nD) (t : Fin cfg0.N) (y : S64x64.Idx) :
    (iblk0 V c 1 t : Vec Ideal S64x64 .f32) y = (V c main_arg2 : S64x64.Idx → EReal) y := by
  obtain ⟨-, -, e0, e1, -⟩ := users_index t
  unfold iblk0
  rw [View.read_apply]
  show V c main_arg2 _ = V c main_arg2 _
  congr 1
  funext a
  apply Fin.ext
  match a with
  | ⟨0, _⟩ => show win0_1.index t 0 * 64 + 1 * (y 0).val = (y 0).val; rw [e0]; omega
  | ⟨1, _⟩ => show win0_1.index t 1 * 64 + 1 * (y 1).val = (y 1).val; rw [e1]; omega

/-- Entry `y` of the table's block at point `t` sits at row `10000 t + y₀`, column `y₁` of the table. -/
theorem users_table_block (t : Fin cfg0.N) (y : S10000x64.Idx) (i : S100000x64.Idx)
    (h0 : (i 0).val = 10000 * t.val + (y 0).val) (h1 : (i 1).val = (y 1).val) :
    ((cfg0.win 2).blk t).view.emb y = i := by
  obtain ⟨-, -, -, -, e0, e1⟩ := users_index t
  funext a
  apply Fin.ext
  match a with
  | ⟨0, _⟩ => show win0_2.index t 0 * 10000 + 1 * (y 0).val = (i 0).val; rw [e0, h0]; omega
  | ⟨1, _⟩ => show win0_2.index t 1 * 64 + 1 * (y 1).val = (i 1).val; rw [e1, h1]; omega

/-- WHAT POINT `t` WRITES BACK is rows block `t` of the projection of the features by the weights, as the region
    finds them. -/
theorem users_flushed (c : Dev nD) (t : Fin cfg0.N) :
    (dat0 V c).flushed 2 t
      = ((cfg0.win 2).blk t).view.read (Elt Ideal) (GraphConv.project 100000 (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  have ht : t.val < 10 := by have h := t.isLt; have hN : cfg0.N = 10 := N_0; omega
  have hr : 10000 * t.val + p.val < 100000 := by have := p.isLt; omega
  show (k0_pay1 (F := Ideal) (iblk0 V c 0 t) (iblk0 V c 1 t) : S10000x64.Idx → EReal) (ix2 p q)
    = GraphConv.project 100000 (V c main_arg0) (V c main_arg2) (((cfg0.win 2).blk t).view.emb (ix2 p q))
  rw [users_table_block t (ix2 p q) (ix2 ⟨10000 * t.val + p.val, hr⟩ q) rfl rfl, GraphConv.project_apply]
  refine (stored_block_users (iblk0 V c 0 t) (iblk0 V c 1 t) p q).trans ?_
  refine Finset.sum_congr rfl fun k _ => ?_
  rw [users_features_block V c t (ix2 p k) (ix2 ⟨10000 * t.val + p.val, hr⟩ k) rfl rfl, users_weights_block V c t (ix2 k q)]

/-- An index of the table is in point `t`'s block iff each coordinate is in the block's range on its axis. -/
theorem users_mem_block (t : Fin cfg0.N) (i : S100000x64.Idx) :
    i ∈ ((cfg0.win 2).blk t).view.set
      ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every row of the table is in the block of the point `row / 10000`. -/
theorem users_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [users_mem_block]
  obtain ⟨-, -, -, -, e0, e1⟩ := users_index ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e1]; omega

/-- THE TABLE after the region: the projection of the features by the weights, as the region finds them. -/
theorem users_table (c : Dev nD) :
    (dat0 V c).arrAt 2 cfg0.N = GraphConv.project 100000 (V c main_arg0) (V c main_arg2) :=
  (dat0 V c).arrAt_eq_of_cover 2 (GraphConv.project 100000 (V c main_arg0) (V c main_arg2))
    (fun t _ => users_flushed V c t) users_cover

end Users

/-! ## The items' region (pipeline 1): 50000 rows in 5 blocks of 10000 -/

section Items

/-- The region's index maps over its grid: point `t` takes rows block `t` of the features, the whole weights, and
    writes rows block `t` of the table. -/
theorem items_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `y` of the features' block at point `t` is the features at row `10000 t + y₀`, column `y₁`. -/
theorem items_features_block (c : Dev nD) (t : Fin cfg1.N) (y : S10000x64.Idx) (i : S50000x64.Idx)
    (h0 : (i 0).val = 10000 * t.val + (y 0).val) (h1 : (i 1).val = (y 1).val) :
    (iblk1 V c 0 t : Vec Ideal S10000x64 .f32) y = (V c main_arg1 : S50000x64.Idx → EReal) i := by
  obtain ⟨e0, e1, -⟩ := items_index t
  unfold iblk1
  rw [View.read_apply]
  show V c main_arg1 _ = V c main_arg1 _
  congr 1
  funext a
  apply Fin.ext
  match a with
  | ⟨0, _⟩ => show win1_0.index t 0 * 10000 + 1 * (y 0).val = (i 0).val; rw [e0, h0]; omega
  | ⟨1, _⟩ => show win1_0.index t 1 * 64 + 1 * (y 1).val = (i 1).val; rw [e1, h1]; omega

/-- The weights' block at every point is the whole weight array. -/
theorem items_weights_block (c : Dev nD) (t : Fin cfg1.N) (y : S64x64.Idx) :
    (iblk1 V c 1 t : Vec Ideal S64x64 .f32) y = (V c main_arg3 : S64x64.Idx → EReal) y := by
  obtain ⟨-, -, e0, e1, -⟩ := items_index t
  unfold iblk1
  rw [View.read_apply]
  show V c main_arg3 _ = V c main_arg3 _
  congr 1
  funext a
  apply Fin.ext
  match a with
  | ⟨0, _⟩ => show win1_1.index t 0 * 64 + 1 * (y 0).val = (y 0).val; rw [e0]; omega
  | ⟨1, _⟩ => show win1_1.index t 1 * 64 + 1 * (y 1).val = (y 1).val; rw [e1]; omega

/-- Entry `y` of the table's block at point `t` sits at row `10000 t + y₀`, column `y₁` of the table. -/
theorem items_table_block (t : Fin cfg1.N) (y : S10000x64.Idx) (i : S50000x64.Idx)
    (h0 : (i 0).val = 10000 * t.val + (y 0).val) (h1 : (i 1).val = (y 1).val) :
    ((cfg1.win 2).blk t).view.emb y = i := by
  obtain ⟨-, -, -, -, e0, e1⟩ := items_index t
  funext a
  apply Fin.ext
  match a with
  | ⟨0, _⟩ => show win1_2.index t 0 * 10000 + 1 * (y 0).val = (i 0).val; rw [e0, h0]; omega
  | ⟨1, _⟩ => show win1_2.index t 1 * 64 + 1 * (y 1).val = (i 1).val; rw [e1, h1]; omega

/-- WHAT POINT `t` WRITES BACK is rows block `t` of the projection of the features by the weights, as the region
    finds them. -/
theorem items_flushed (c : Dev nD) (t : Fin cfg1.N) :
    (dat1 V c).flushed 2 t
      = ((cfg1.win 2).blk t).view.read (Elt Ideal) (GraphConv.project 50000 (V c main_arg1) (V c main_arg3)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  have ht : t.val < 5 := by have h := t.isLt; have hN : cfg1.N = 5 := N_1; omega
  have hr : 10000 * t.val + p.val < 50000 := by have := p.isLt; omega
  show (k1_pay1 (F := Ideal) (iblk1 V c 0 t) (iblk1 V c 1 t) : S10000x64.Idx → EReal) (ix2 p q)
    = GraphConv.project 50000 (V c main_arg1) (V c main_arg3) (((cfg1.win 2).blk t).view.emb (ix2 p q))
  rw [items_table_block t (ix2 p q) (ix2 ⟨10000 * t.val + p.val, hr⟩ q) rfl rfl, GraphConv.project_apply]
  refine (stored_block_items (iblk1 V c 0 t) (iblk1 V c 1 t) p q).trans ?_
  refine Finset.sum_congr rfl fun k _ => ?_
  rw [items_features_block V c t (ix2 p k) (ix2 ⟨10000 * t.val + p.val, hr⟩ k) rfl rfl, items_weights_block V c t (ix2 k q)]

/-- An index of the table is in point `t`'s block iff each coordinate is in the block's range on its axis. -/
theorem items_mem_block (t : Fin cfg1.N) (i : S50000x64.Idx) :
    i ∈ ((cfg1.win 2).blk t).view.set
      ↔ ∀ a : Fin 2, win1_2.index t a * S10000x64.size a ≤ (i a).val ∧ (i a).val < win1_2.index t a * S10000x64.size a + S10000x64.size a := by
  show i ∈ ((View.whole main_v1).slice (win1_2.rect t)).set ↔ _
  rw [View.set_slice_whole, Rect.mem_set_unit]
  exact Iff.rfl

/-- Every row of the table is in the block of the point `row / 10000`. -/
theorem items_cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 5 := N_1
  refine ⟨⟨(i 0).val / 10000, by rw [hN]; omega⟩, flush1_2 _, ?_⟩
  rw [items_mem_block]
  obtain ⟨-, -, -, -, e0, e1⟩ := items_index ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e0]; show (i 0).val / 10000 * 10000 ≤ (i 0).val ∧ (i 0).val < (i 0).val / 10000 * 10000 + 10000; omega
  | ⟨1, _⟩ =>
    show win1_2.index _ (1 : Fin 2) * 64 ≤ (i 1).val ∧ (i 1).val < win1_2.index _ (1 : Fin 2) * 64 + 64
    rw [e1]; omega

/-- THE TABLE after the region: the projection of the features by the weights, as the region finds them. -/
theorem items_table (c : Dev nD) :
    (dat1 V c).arrAt 2 cfg1.N = GraphConv.project 50000 (V c main_arg1) (V c main_arg3) :=
  (dat1 V c).arrAt_eq_of_cover 2 (GraphConv.project 50000 (V c main_arg1) (V c main_arg3))
    (fun t _ => items_flushed V c t) items_cover

end Items

end Cert.KernelIdeal.Results

end
-- ==== Proof.KernelValue.lean ====
/-
  The kernel program's two results as functions of its arguments, on the extended reals.
  The fold of the program's segments, read at a result buffer, is the host tail's function (Tail.lean) of what the two
  regions left: each region's table is the projection of its features by its weights (RegionArrays.lean) — of the
  ARGUMENTS, since neither region, nor anything before it, writes an argument or the other region's operands —, and
  the edge arrays are the arguments themselves.
-/
import proofs.«146320_j73890617360949_2_alg».proof.Proof.Tail
import proofs.«146320_j73890617360949_2_alg».proof.Proof.RegionArrays

set_option maxRecDepth 16384

noncomputable section

namespace Cert.KernelIdeal.Results

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After both regions the items' table is the projection of the items' features by their weights. -/
theorem items_table_final (c : Dev nD) :
    W2 m ρ c (Proc.devRef .tc main_v1)
      = GraphConv.project 50000 (m ((c.tc : Thread nD τ).loc main_arg1)) (m ((c.tc : Thread nD τ).loc main_arg3)) := by
  refine (W2_arr m ρ c 2).trans ((items_table (V1 m ρ) c).trans ?_)
  have a1 : V1 m ρ c main_arg1 = m ((c.tc : Thread nD τ).loc main_arg1) := W1_of_ne m ρ c main_arg1 (by decide)
  have a3 : V1 m ρ c main_arg3 = m ((c.tc : Thread nD τ).loc main_arg3) := W1_of_ne m ρ c main_arg3 (by decide)
  rw [a1, a3]

/-- After both regions the users' table is the projection of the users' features by their weights. -/
theorem users_table_final (c : Dev nD) :
    W2 m ρ c (Proc.devRef .tc main_v0)
      = GraphConv.project 100000 (m ((c.tc : Thread nD τ).loc main_arg0)) (m ((c.tc : Thread nD τ).loc main_arg2)) :=
  (W2_of_ne m ρ c main_v0 (by decide)).trans ((W1_arr m ρ c 2).trans (users_table (V0 m ρ) c))

/-- The edge arrays are untouched by the regions. -/
theorem rows_final (c : Dev nD) : W2 m ρ c (Proc.devRef .tc main_arg4) = m ((c.tc : Thread nD τ).loc main_arg4) :=
  (W2_of_ne m ρ c main_arg4 (by decide)).trans (W1_of_ne m ρ c main_arg4 (by decide))
theorem cols_final (c : Dev nD) : W2 m ρ c (Proc.devRef .tc main_arg5) = m ((c.tc : Thread nD τ).loc main_arg5) :=
  (W2_of_ne m ρ c main_arg5 (by decide)).trans (W1_of_ne m ρ c main_arg5 (by decide))
theorem vals_final (c : Dev nD) : W2 m ρ c (Proc.devRef .tc main_arg6) = m ((c.tc : Thread nD τ).loc main_arg6) :=
  (W2_of_ne m ρ c main_arg6 (by decide)).trans (W1_of_ne m ρ c main_arg6 (by decide))

/-- The users' result: the users' output of the items' projection. -/
theorem users_result (c : Dev nD) :
    W5 m ρ c (Proc.devRef .tc main_v30)
      = usersOut (F := Ideal) (GraphConv.project 50000 (m ((c.tc : Thread nD τ).loc main_arg1)) (m ((c.tc : Thread nD τ).loc main_arg3)))
          (m ((c.tc : Thread nD τ).loc main_arg4)) (m ((c.tc : Thread nD τ).loc main_arg5)) (m ((c.tc : Thread nD τ).loc main_arg6)) := by
  show StableHlo.after hostOps2_2 (StableHlo.after hostOps2_1 (StableHlo.after hostOps2 (W2 m ρ c))) (Proc.devRef .tc main_v30) = _
  rw [after_tail_users, items_table_final, rows_final, cols_final, vals_final]

/-- The items' result: the items' output of the users' projection. -/
theorem items_result (c : Dev nD) :
    W5 m ρ c (Proc.devRef .tc main_v31)
      = itemsOut (F := Ideal) (GraphConv.project 100000 (m ((c.tc : Thread nD τ).loc main_arg0)) (m ((c.tc : Thread nD τ).loc main_arg2)))
          (m ((c.tc : Thread nD τ).loc main_arg4)) (m ((c.tc : Thread nD τ).loc main_arg5)) (m ((c.tc : Thread nD τ).loc main_arg6)) := by
  show StableHlo.after hostOps2_2 (StableHlo.after hostOps2_1 (StableHlo.after hostOps2 (W2 m ρ c))) (Proc.devRef .tc main_v31) = _
  rw [after_tail_items, users_table_final, rows_final, cols_final, vals_final]

end Cert.KernelIdeal.Results

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«146320_j73890617360949_2_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.Bridge.lean ====
/-
  The reference's two results as the SAME functions the kernel's program ends with.  The reference computes both
  projections with the host's dot_general, whose entry `(p, q)` on the extended reals is `∑ k, x[p, k] · w[k, q]`:
  the projection of Spec.lean.  From there on it performs, operation for operation, the message passing the kernel's
  host tail performs (Tail.lean) — the only difference being that the kernel's tables are stored in a narrow format
  and widened after the gather, which is the identity on the extended reals.
-/
import proofs.«146320_j73890617360949_2_alg».proof.Proof.Tail
import proofs.«146320_j73890617360949_2_alg».proof.Proof.Spec
import proofs.«146320_j73890617360949_2_alg».proof.Proof.LibDotGeneralNN
import proofs.«146320_j73890617360949_2_alg».proof.Proof.Gen.ReferenceIdeal.Read

set_option maxRecDepth 16384

noncomputable section

namespace Cert.ReferenceIdeal.RefValue

open Idealize.ShloMosaic Idealize.ShloMosaic.ValueIdx
open Cert.ReferenceIdeal Cert.ReferenceIdeal.Read

/-- The host's product of the users' features by their weights is the projection. -/
theorem users_projection (x : (⟨S100000x64, .f32⟩ : BufTy).Contents (Elt Ideal)) (w : (⟨S64x64, .f32⟩ : BufTy).Contents (Elt Ideal)) :
    val_main_v0 (F := Ideal) x w = GraphConv.project 100000 x w := by
  funext i
  obtain ⟨p, q, rfl⟩ : ∃ (p : Fin 100000) (q : Fin 64), i = ix2 p q := ⟨i 0, i 1, eq_ix2 i⟩
  exact LibDotGeneralNN.dotGeneral_apply 100000 64 64 none .single x w p q

/-- The host's product of the items' features by their weights is the projection. -/
theorem items_projection (x : (⟨S50000x64, .f32⟩ : BufTy).Contents (Elt Ideal)) (w : (⟨S64x64, .f32⟩ : BufTy).Contents (Elt Ideal)) :
    val_main_v1 (F := Ideal) x w = GraphConv.project 50000 x w := by
  funext i
  obtain ⟨p, q, rfl⟩ : ∃ (p : Fin 50000) (q : Fin 64), i = ix2 p q := ⟨i 0, i 1, eq_ix2 i⟩
  exact LibDotGeneralNN.dotGeneral_apply 50000 64 64 none .single x w p q

/-- The reference's first result is the users' output of the items' projection. -/
theorem users_result (x1 : (⟨S50000x64, .f32⟩ : BufTy).Contents (Elt Ideal)) (x3 : (⟨S64x64, .f32⟩ : BufTy).Contents (Elt Ideal))
    (x4 x5 : (⟨S1600000, .i32⟩ : BufTy).Contents (Elt Ideal)) (x6 : (⟨S1600000, .f32⟩ : BufTy).Contents (Elt Ideal)) :
    val_main_v28 (F := Ideal) x1 x3 x4 x5 x6
      = Cert.KernelIdeal.Results.usersOut (F := Ideal) (GraphConv.project 50000 x1 x3) x4 x5 x6 := by
  unfold val_main_v28 val_main_v14 val_main_v11 val_main_v9
  rw [items_projection]
  rfl

/-- The reference's second result is the items' output of the users' projection. -/
theorem items_result (x0 : (⟨S100000x64, .f32⟩ : BufTy).Contents (Elt Ideal)) (x2 : (⟨S64x64, .f32⟩ : BufTy).Contents (Elt Ideal))
    (x4 x5 : (⟨S1600000, .i32⟩ : BufTy).Contents (Elt Ideal)) (x6 : (⟨S1600000, .f32⟩ : BufTy).Contents (Elt Ideal)) :
    val_main_v29 (F := Ideal) x0 x2 x4 x5 x6
      = Cert.KernelIdeal.Results.itemsOut (F := Ideal) (GraphConv.project 100000 x0 x2) x4 x5 x6 := by
  unfold val_main_v29 val_main_v27 val_main_v24 val_main_v22
  rw [users_projection]
  rfl

end Cert.ReferenceIdeal.RefValue

end
-- ==== Proof.lean ====
/-
  Graph convolution on a bipartite user–item graph: both feature tables are projected by their `64 × 64` weights, the
  projected rows are gathered along the edges, scaled by the edge weights, scatter-added onto the opposite side and
  clipped below at zero.  The kernel program computes the two projections in two row-blocked matrix-unit regions (storing
  them in a narrow format) and the message passing on the host; the reference computes everything on the host.

  On the extended reals a change of format is the identity and a matrix-unit product into a zero accumulator is the
  host's dot_general, entry by entry `∑ k, x[p, k] · w[k, q]` (Spec.lean).  So after its two regions the kernel program
  holds the same two projections the reference computes (RegionArrays.lean, Bridge.lean), and from there both apply
  the same message passing to them (Tail.lean): both results are one function of the arguments (KernelValue.lean).
  No law that needs finite inputs is used, so the precondition is never opened.

  The three frames: the two kernel programs' are the generated frame runs; the reference's is its run with the
  results dropped.  The idealization rewrote nothing, so there is nothing to preserve.
-/
import proofs.«146320_j73890617360949_2_alg».proof.Defs
import proofs.«146320_j73890617360949_2_alg».proof.Proof.Gen.Kernel
import proofs.«146320_j73890617360949_2_alg».proof.Proof.Gen.Kernel.Frame
import proofs.«146320_j73890617360949_2_alg».proof.Proof.Gen.KernelIdeal
import proofs.«146320_j73890617360949_2_alg».proof.Proof.Gen.KernelIdeal.Frame
import proofs.«146320_j73890617360949_2_alg».proof.Proof.Gen.ReferenceIdeal
import proofs.«146320_j73890617360949_2_alg».proof.Proof.Gen.Pre_finite_inputs
import proofs.«146320_j73890617360949_2_alg».proof.Proof.Gen.ReferenceIdeal.Run
import proofs.«146320_j73890617360949_2_alg».proof.Proof.Gen.ReferenceIdeal.Read
import proofs.«146320_j73890617360949_2_alg».proof.Proof.KernelRun
import proofs.«146320_j73890617360949_2_alg».proof.Proof.KernelValue
import proofs.«146320_j73890617360949_2_alg».proof.Proof.Bridge

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the users' output of the items' projection and the items' output of the users' projection,
    of arguments that agree. -/
theorem algebraic : Cert.algebraic_KernelIdeal_ReferenceIdeal := by
  intro m ρ m' ρ' _ hagree
  refine ⟨fun c => Cert.KernelIdeal.Results.usersOut (F := Ideal)
      (GraphConv.project 50000 (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.KernelIdeal.Results.itemsOut (F := Ideal)
      (GraphConv.project 100000 (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun _ h c => ?_) (Cert.KernelIdeal.Results.run (F := Ideal) m ρ)
    exact ⟨(h c).1.trans (Cert.KernelIdeal.Results.users_result m ρ c),
      (h c).2.1.trans (Cert.KernelIdeal.Results.items_result m ρ c), (h c).2.2⟩
  · refine (θ_run Cert.ReferenceIdeal.defs _ _).mono (fun _ h c => ?_) (Cert.ReferenceIdeal.Value.run (F := Ideal) m' ρ')
    obtain ⟨e0, e1, e2, e3, e4, e5, e6⟩ := hagree c
    refine ⟨(h c).1.trans ?_, (h c).2.1.trans ?_, (h c).2.2⟩
    · rw [Cert.ReferenceIdeal.Read.val_main_v28_eq, e1, e3, e4, e5, e6]
      exact Cert.ReferenceIdeal.RefValue.users_result _ _ _ _ _
    · rw [Cert.ReferenceIdeal.Read.val_main_v29_eq, e0, e2, e4, e5, e6]
      exact Cert.ReferenceIdeal.RefValue.items_result _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
